-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x28672 : Shape := ⟨2, ![4096, 28672]⟩
abbrev S_ : Shape := ⟨0, ![]⟩

class Facts : Prop where
  bcast_S_S4096x28672 : S_.BroadcastsInDim S4096x28672 (![] : Fin 0 → Fin S4096x28672.rank)
  reducesTo_S4096x28672_S_d0_1 : S4096x28672.ReducesTo [0, 1] S_
  h_S_ : 0 < S_.numel

variable [Facts]

def fn {F : FTy → Type} [FloatOps F] (main_arg0 : FVec F S4096x28672 .f32) : IVec S_ 1 :=
  let main_v0 : FVec F S4096x28672 .f32 := Host.absf main_arg0
  let main_cst : FVec F S_ .f32 := constant S_ .f32 0x7F800000#32
  let main_v1 : FVec F S4096x28672 .f32 := broadcastInDim S4096x28672 ![] bcast_S_S4096x28672 main_cst
  let main_v2 : IVec S4096x28672 1 := cmpf .olt main_v0 main_v1
  let main_c : IVec S_ 1 := constantI S_ 1 1#1
  let main_v3 : IVec S_ 1 := (fun x v => Host.reduce IntOp.andi x v reducesTo_S4096x28672_S_d0_1 h_S_) main_v2 main_c
  main_v3
-- ==== Kernel.lean ====
abbrev S4096x28672 : Shape := ⟨2, ![4096, 28672]⟩
abbrev S4096x2x14336 : Shape := ⟨3, ![4096, 2, 14336]⟩
abbrev S4096x14336 : Shape := ⟨2, ![4096, 14336]⟩
abbrev S512x2x2048 : Shape := ⟨3, ![512, 2, 2048]⟩
abbrev S512x2048 : Shape := ⟨2, ![512, 2048]⟩
abbrev S512x1x2048 : Shape := ⟨3, ![512, 1, 2048]⟩

abbrev nBuf : Space → Nat
  | .hbm => 3
  | .vmem => 4
  | .smem => 0
  | _ => 0

abbrev bufTy : (tb : Table) → Fin (tcTables nBuf tb) → BufTy
  | .hbm, ⟨0, _⟩ => ⟨S4096x28672, .f32⟩
  | .hbm, ⟨1, _⟩ => ⟨S4096x2x14336, .f32⟩
  | .hbm, ⟨2, _⟩ => ⟨S4096x14336, .f32⟩
  | .local _ .vmem, ⟨0, _⟩ => ⟨S512x2x2048, .f32⟩
  | .local _ .vmem, ⟨1, _⟩ => ⟨S512x2x2048, .f32⟩
  | .local _ .vmem, ⟨2, _⟩ => ⟨S512x2048, .f32⟩
  | .local _ .vmem, ⟨3, _⟩ => ⟨S512x2048, .f32⟩
  | _, _ => ⟨S4096x28672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S4096x28672_S4096x2x14336 : S4096x28672.ShapeCasts S4096x2x14336
  inb_S512x2x2048_S512x1x2048_0_0_0 : ∀ a, (![0, 0, 0] : Fin 3 → Nat) a + S512x1x2048.size a ≤ S512x2x2048.size a
  h_S512x1x2048 : 0 < S512x1x2048.numel
  shapeCasts_S512x1x2048_S512x2048 : S512x1x2048.ShapeCasts S512x2048
  inb_S512x2x2048_S512x1x2048_0_1_0 : ∀ a, (![0, 1, 0] : Fin 3 → Nat) a + S512x1x2048.size a ≤ S512x2x2048.size a
  inb_S512x2048_S512x2048_0_0 : ∀ a, (![0, 0] : Fin 2 → Nat) a + S512x2048.size a ≤ S512x2048.size a
  h_S512x2048 : 0 < S512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2x2048.size a ≤ S4096x2x14336.size a
  hwx0_0 : ∀ i : grid0.Coords, EltTy.bits .f32 = 32 ∨ (Rect.block (s := S4096x2x14336) S512x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x14336.size a
  hwx0_1 : ∀ i : grid0.Coords, EltTy.bits .f32 = 32 ∨ (Rect.block (s := S4096x14336) S512x2048.size (cc0_transform_1 i) (hinb0_1 i)).WholeWords (EltTy.packing .f32)

variable [Facts₀]

abbrev win0_0 : Pipeline.Window sig grid0 :=
  Pipeline.Window.ofSpec (Memref.whole main_v0) S512x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x28672 : Shape := ⟨2, ![4096, 28672]⟩
abbrev S4096x14336 : Shape := ⟨2, ![4096, 14336]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x28672, .f32⟩
  | .hbm, ⟨1, _⟩ => ⟨S4096x14336, .f32⟩
  | .hbm, ⟨2, _⟩ => ⟨S4096x14336, .f32⟩
  | .hbm, ⟨3, _⟩ => ⟨S4096x14336, .f32⟩
  | .hbm, ⟨4, _⟩ => ⟨S4096x14336, .f32⟩
  | .hbm, ⟨5, _⟩ => ⟨S_, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S4096x14336, .f32⟩
  | .hbm, ⟨12, _⟩ => ⟨S4096x14336, .f32⟩
  | _, _ => ⟨S4096x28672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  slices_S4096x28672_S4096x14336_0_0 : S4096x28672.Slices ![0, 0] S4096x14336
  slices_S4096x28672_S4096x14336_0_14336 : S4096x28672.Slices ![0, 14336] S4096x14336
  bcast_S_S4096x14336 : S_.BroadcastsInDim S4096x14336 (![] : Fin 0 → Fin S4096x14336.rank)

variable [Facts₀]

class Facts : Prop extends Facts₀ where

variable [Facts]
-- ==== Proof.GatedSilu.lean ====
/-
  Gated SiLU of a row of 2·d numbers. The first d entries of a row are the GATE, the last d the UP values,
  and the result at column j is

      (gate_j · σ(gate_j)) · up_j ,        σ(x) = 1 / (1 + e^(−x))   (the logistic function).

  Here the array is [4096, 28672] and d = 14336, so the result is [4096, 14336]. This file states that result
  as ONE function of the whole argument array, index by index (`gatedSilu`), with the two places a result
  index reads the argument (`gateAt`, `upAt`) named. It imports no program.

  The only number in the computation is the 1 of the logistic function's quotient; `one_word` says the
  single-precision pattern 0x3F800000 denotes it exactly.
-/
import Idealize.ShloMosaic.PureOps.Ideal
import Idealize.ShloMosaic.Lib.ValueIdx

noncomputable section

namespace Cert.GatedSilu

open Idealize.ShloMosaic

/-- The argument: 4096 rows of 2·14336 numbers. -/
abbrev Full : Shape := ⟨2, ![4096, 28672]⟩
/-- The result: 4096 rows of 14336 numbers. -/
abbrev Half : Shape := ⟨2, ![4096, 14336]⟩

/-- Result index (r, j) reads its gate at row r, column j of the argument. -/
abbrev gateAt (i : Half.Idx) : Full.Idx := fun a => match a with
  | ⟨0, _⟩ => ⟨(i 0).val, (i 0).isLt⟩
  | ⟨1, _⟩ => ⟨(i 1).val, by have h1 : (i 1).val < 14336 := (i 1).isLt; show (i 1).val < 28672; omega⟩

/-- Result index (r, j) reads its up value at row r, column d + j of the argument. -/
abbrev upAt (i : Half.Idx) : Full.Idx := fun a => match a with
  | ⟨0, _⟩ => ⟨(i 0).val, (i 0).isLt⟩
  | ⟨1, _⟩ => ⟨14336 + (i 1).val, by have h1 : (i 1).val < 14336 := (i 1).isLt; show 14336 + (i 1).val < 28672; omega⟩

variable {F : FTy → Type} [FloatOps F]

/-- The gated SiLU of the whole array: at (r, j) the gate times its logistic, times the up value. The two
    products are taken in this order, gate · σ(gate) first. -/
def gatedSilu (x : Full.Idx → Elt F .f32) : Half.Idx → Elt F .f32 := fun i =>
  FloatOps.mulf (FloatOps.mulf (x (gateAt i)) (FloatOps.logistic (x (gateAt i)))) (x (upAt i))

/-- The pattern 0x3F800000 (sign 0, biased exponent 127, fraction 0) is the number 1. -/
theorem one_word : Ideal.ofBits .f32 0x3F800000#32 = 1 := by
  simp [Ideal.ofBits, Ideal.ieee, -EReal.coe_mul]; norm_num

end Cert.GatedSilu

end
-- ==== Proof.RefStage.lean ====
/-
  The reference computes the gated SiLU with the logistic function spelt out: it slices the gate half and
  the up half out of each row, forms  1 / (1 + e^(−gate))  by negate, exponential, add and divide, multiplies
  the gate by that quotient and the product by the up half. On the extended reals the logistic function IS
  that quotient, for every argument including ±∞ (at −∞ the quotient is 1/(1 + ∞) = 0, at +∞ it is
  1/(1 + 0) = 1), so index by index the reference's last stage is `gatedSilu` of the argument. No finiteness
  of the input is used.
-/
import proofs.«107525_j78752520339576_2_alg».proof.Proof.Gen.ReferenceIdeal.Read
import proofs.«107525_j78752520339576_2_alg».proof.Proof.GatedSilu

noncomputable section

namespace Cert.ReferenceIdeal.RefValue

open Cert.ReferenceIdeal Cert.ReferenceIdeal.Read Idealize.ShloMosaic Cert.GatedSilu

/-- The reference's result, read one operation at a time down to the argument, is the gated SiLU: the two
    slices read the argument at `gateAt` and `upAt`, both broadcast constants are the number 1, and
    1 / (1 + e^(−x)) is the logistic function of x. -/
theorem stage_eq (x0 : (⟨S4096x28672, .f32⟩ : BufTy).Contents (Elt Ideal)) :
    val_main_v3 (F := Ideal) x0 = gatedSilu (F := Ideal) x0 := by
  funext i
  rw [val_main_v3_apply, val_main_v2_apply, val_main_v1_apply, val_main_call0_v5_apply, val_main_call0_v4_apply,
    val_main_call0_cst_0_apply, val_main_call0_v3_apply, val_main_call0_v2_apply, val_main_call0_cst_apply,
    val_main_call0_v1_apply, val_main_call0_v0_apply, val_main_v0_apply]
  simp only [Ideal.ofBits_def, one_word]
  rfl

end Cert.ReferenceIdeal.RefValue

end
-- ==== Proof.InputBlock.lean ====
/-
  The kernel sees each row of 2·14336 numbers as two rows of 14336 — the array [4096, 28672] re-read as
  [4096, 2, 14336], slot 0 the gate half and slot 1 the up half — and works on blocks of [512, 2, 2048]:
  512 rows, both slots, 2048 columns. This file reads three things at an index.

  * The re-read array: entry (r, s, j) of [4096, 2, 14336] is entry (r, s·14336 + j) of [4096, 28672], because
    both sit at the same row-major position r·28672 + s·14336 + j.
  * The body: from an input block it leaves a [512, 2048] block whose entry (p, q) is
    (g · σ(g)) · u with g the block's entry (p, 0, q) and u its entry (p, 1, q).
  * The input block at a grid point: its entry (p, s, q) is the argument's entry
    (512·I₀ + p, (2·I₁ + s)·14336 + 2048·I₂ + q), where (I₀, I₁, I₂) is the block index the point's index map gives.
-/
import proofs.«107525_j78752520339576_2_alg».proof.Proof.Gen.KernelIdeal.Value
import proofs.«107525_j78752520339576_2_alg».proof.Proof.GatedSilu
import Idealize.ShloMosaic.Lib.StableHlo.Run
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Cert.GatedSilu

variable {F : FTy → Type} [FloatOps F]
variable (m : (ℓ : Loc nD τ sig) → Buf (Elt F) ℓ)

/-- Entry (r, s, j) of the array re-read as [4096, 2, 14336] is entry (r, s·14336 + j) of the array itself:
    the two indices have the same row-major position. -/
theorem reshaped_apply {α : Type} (x : S4096x28672.Idx → α) (k3 : S4096x2x14336.Idx) (k2 : S4096x28672.Idx)
    (h0 : (k2 0).val = (k3 0).val) (h1 : (k2 1).val = (k3 1).val * 14336 + (k3 2).val) :
    shapeCast S4096x2x14336 x shapeCasts_S4096x28672_S4096x2x14336 k3 = x k2 :=
  shapeCast_apply x shapeCasts_S4096x28672_S4096x2x14336 k3 k2 (by
    rw [Shape.rowMajor_val_two, Shape.rowMajor_val_three]
    show (k2 0).val * 28672 + (k2 1).val = ((k3 0).val * 2 + (k3 1).val) * 14336 + (k3 2).val
    omega)

/-- Inside an input block, result position (p, q) reads its gate at (p, 0, q). -/
abbrev gateIn (y : S512x2048.Idx) : S512x2x2048.Idx := fun a => match a with
  | ⟨0, _⟩ => ⟨(y 0).val, (y 0).isLt⟩
  | ⟨1, _⟩ => ⟨0, by show 0 < 2; omega⟩
  | ⟨2, _⟩ => ⟨(y 1).val, (y 1).isLt⟩

/-- Inside an input block, result position (p, q) reads its up value at (p, 1, q). -/
abbrev upIn (y : S512x2048.Idx) : S512x2x2048.Idx := fun a => match a with
  | ⟨0, _⟩ => ⟨(y 0).val, (y 0).isLt⟩
  | ⟨1, _⟩ => ⟨1, by show 1 < 2; omega⟩
  | ⟨2, _⟩ => ⟨(y 1).val, (y 1).isLt⟩

/-- What the body leaves at (p, q) of its output block, from ANY input block: the gate at (p, 0, q) times its
    logistic, times the up value at (p, 1, q). The two loads take slot 0 and slot 1 of the block (offsets
    (0, 0, 0) and (0, 1, 0), unit strides), and dropping the slot axis moves no element. -/
theorem body_block (x0 : Vec F S512x2x2048 .f32) (y : S512x2048.Idx) :
    out0_1 x0 y = FloatOps.mulf (FloatOps.mulf (x0 (gateIn y)) (FloatOps.logistic (x0 (gateIn y)))) (x0 (upIn y)) := by
  unfold out0_1
  rw [canon1_eq]
  show FloatOps.mulf (FloatOps.mulf (x0 (r0_0.idx (ix1_0 y))) (FloatOps.logistic (x0 (r0_0.idx (ix1_1 y)))))
      (x0 (r0_1.idx (ix1_2 y))) = _
  have e0 : r0_0.idx (ix1_0 y) = gateIn y := by
    funext a; apply Fin.ext
    match a with
    | ⟨0, _⟩ => show 0 + 1 * (y 0).val = (y 0).val; omega
    | ⟨1, _⟩ => show 0 + 1 * 0 = 0; rfl
    | ⟨2, _⟩ => show 0 + 1 * (y 1).val = (y 1).val; omega
  have e2 : r0_1.idx (ix1_2 y) = upIn y := by
    funext a; apply Fin.ext
    match a with
    | ⟨0, _⟩ => show 0 + 1 * (y 0).val = (y 0).val; omega
    | ⟨1, _⟩ => show 1 + 1 * 0 = 1; rfl
    | ⟨2, _⟩ => show 0 + 1 * (y 1).val = (y 1).val; omega
  rw [e0, e2]

/-- The array the input window stages is the argument re-read as [4096, 2, 14336]: the one operation before
    the kernel's launch is that re-reading. -/
theorem staged_eq (c : Dev nD) : (V m c main_v0 : S4096x2x14336.Idx → Elt F .f32)
    = shapeCast S4096x2x14336 (m ((c : Thread nD τ).loc main_arg0)) shapeCasts_S4096x28672_S4096x2x14336 := by
  dsimp only [V, hostOps0]; after_results; rfl

/-- Entry `z` of the input block at grid point `t`, whose block index is (I₀, I₁, I₂), is the argument's entry
    `k`, when `k`'s row is the block's first row 512·I₀ plus `z`'s, and `k`'s column is (slot)·14336 + (the block's
    first column 2048·I₂ plus `z`'s), the slot being 2·I₁ + `z`'s. -/
theorem in_block_apply (c : Dev nD) (t : Fin cfg0.N) (z : S512x2x2048.Idx) (k : S4096x28672.Idx) (I0 I1 I2 : Nat)
    (hI0 : win0_0.index t (0 : Fin 3) = I0) (hI1 : win0_0.index t (1 : Fin 3) = I1) (hI2 : win0_0.index t (2 : Fin 3) = I2)
    (hk0 : (k 0).val = I0 * 512 + (z 0).val)
    (hk1 : (k 1).val = (I1 * 2 + (z 1).val) * 14336 + (I2 * 2048 + (z 2).val)) :
    (iblk m c 0 t : Vec F S512x2x2048 .f32) z = (m ((c : Thread nD τ).loc main_arg0) : S4096x28672.Idx → Elt F .f32) k := by
  unfold iblk
  rw [View.read_apply]
  show (V m c main_v0 : S4096x2x14336.Idx → Elt F .f32) (((cfg0.win 0).blk t).view.emb z) = _
  rw [staged_eq]
  refine reshaped_apply _ _ k ?_ ?_
  · show (k 0).val = win0_0.index t (0 : Fin 3) * 512 + 1 * (z 0).val
    rw [hI0, Nat.one_mul]; exact hk0
  · show (k 1).val = (win0_0.index t (1 : Fin 3) * 2 + 1 * (z 1).val) * 14336 + (win0_0.index t (2 : Fin 3) * 2048 + 1 * (z 2).val)
    rw [hI1, hI2, Nat.one_mul, Nat.one_mul]; exact hk1

end Cert.KernelIdeal.Hand

end
-- ==== Proof.KernelValue.lean ====
/-
  The kernel's result array is the gated SiLU of the argument.

  The grid has 8 × 7 points. At point (a, b) the input window holds block (a, 0, b) of the re-read array
  [4096, 2, 14336] — rows 512a … 512a + 511, both slots, columns 2048b … 2048b + 2047 — and the output window
  writes block (a, b) of the result [4096, 14336] — the same rows and the same columns. So entry (p, q) of the
  block written back at (a, b) is result entry (512a + p, 2048b + q), and it was computed from the argument's
  entries (512a + p, 2048b + q) and (512a + p, 14336 + 2048b + q): exactly the gate and the up value the gated
  SiLU reads there. The 56 output blocks tile the result (result entry (r, j) lies in the block of the point
  (r / 512, j / 2048)), so after the run the whole array holds the gated SiLU.
-/
import proofs.«107525_j78752520339576_2_alg».proof.Proof.InputBlock

noncomputable section

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Cert.GatedSilu

variable {F : FTy → Type} [FloatOps F]
variable (m : (ℓ : Loc nD τ sig) → Buf (Elt F) ℓ) (ρ : Dev nD → PrngReg)

/-- The two index maps, decided over the 56 grid points: the input block's row index and column index are the
    output block's, its slot index is 0, and the output's block indices are at most 7 and 6. -/
theorem block_indices : ∀ t : Fin cfg0.N,
    win0_0.index t (0 : Fin 3) = win0_1.index t (0 : Fin 2)
    ∧ win0_0.index t (1 : Fin 3) = 0
    ∧ win0_0.index t (2 : Fin 3) = win0_1.index t (1 : Fin 2)
    ∧ win0_1.index t (0 : Fin 2) ≤ 7 ∧ win0_1.index t (1 : Fin 2) ≤ 6 :=
  (by decide +kernel : ∀ t : Fin grid0.N, _)

/-- Every pair (a, b) with a < 8, b < 7 is the output block index of some grid point. -/
theorem block_onto : ∀ (q0 : Fin 8) (q1 : Fin 7), ∃ t : Fin cfg0.N, win0_1.index t = ![q0.val, q1.val] :=
  (by decide +kernel : ∀ (q0 : Fin 8) (q1 : Fin 7), ∃ t : Fin grid0.N, win0_1.index t = ![q0.val, q1.val])

/-- WHAT POINT `t` WRITES BACK is block `t` of the gated SiLU of the argument. -/
theorem flushed_eq (c : Dev nD) (t : Fin cfg0.N) :
    (dats m 0 c).flushed 1 t
      = ((cfg0.win 1).blk t).view.read (Elt F) (gatedSilu (m ((c : Thread nD τ).loc main_arg0))) := by
  rw [flushed1]
  obtain ⟨e0, e1, e2, b0, b1⟩ := block_indices t
  funext j
  show out0_1 (iblk m c 0 t) j = gatedSilu (m ((c : Thread nD τ).loc main_arg0)) (((cfg0.win 1).blk t).view.emb j)
  refine (body_block (iblk m c 0 t) j).trans ?_
  have hg : (iblk m c 0 t : Vec F S512x2x2048 .f32) (gateIn j)
      = (m ((c : Thread nD τ).loc main_arg0) : S4096x28672.Idx → Elt F .f32) (gateAt (((cfg0.win 1).blk t).view.emb j)) := by
    refine in_block_apply m c t (gateIn j) (gateAt (((cfg0.win 1).blk t).view.emb j))
      (win0_1.index t (0 : Fin 2)) 0 (win0_1.index t (1 : Fin 2)) e0 e1 e2 ?_ ?_
    · show win0_1.index t (0 : Fin 2) * 512 + 1 * (j 0).val = win0_1.index t (0 : Fin 2) * 512 + (j 0).val
      rw [Nat.one_mul]
    · show win0_1.index t (1 : Fin 2) * 2048 + 1 * (j 1).val
        = (0 * 2 + 0) * 14336 + (win0_1.index t (1 : Fin 2) * 2048 + (j 1).val)
      generalize win0_1.index t (1 : Fin 2) = J1
      generalize (j 1).val = q
      omega
  have hu : (iblk m c 0 t : Vec F S512x2x2048 .f32) (upIn j)
      = (m ((c : Thread nD τ).loc main_arg0) : S4096x28672.Idx → Elt F .f32) (upAt (((cfg0.win 1).blk t).view.emb j)) := by
    refine in_block_apply m c t (upIn j) (upAt (((cfg0.win 1).blk t).view.emb j))
      (win0_1.index t (0 : Fin 2)) 0 (win0_1.index t (1 : Fin 2)) e0 e1 e2 ?_ ?_
    · show win0_1.index t (0 : Fin 2) * 512 + 1 * (j 0).val = win0_1.index t (0 : Fin 2) * 512 + (j 0).val
      rw [Nat.one_mul]
    · show 14336 + (win0_1.index t (1 : Fin 2) * 2048 + 1 * (j 1).val)
        = (0 * 2 + 1) * 14336 + (win0_1.index t (1 : Fin 2) * 2048 + (j 1).val)
      generalize win0_1.index t (1 : Fin 2) = J1
      generalize (j 1).val = q
      omega
  rw [hg, hu]
  rfl

/-- A result index is in point `t`'s output block iff each coordinate is in the block's range on its axis. -/
theorem mem_block (t : Fin cfg0.N) (i : S4096x14336.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- The output blocks cover the result: entry (r, j) lies in the block of the point with block index
    (r / 512, j / 2048), and every point writes its block back. -/
theorem cover (i : S4096x14336.Idx) :
    ∃ t : Fin cfg0.N, (cfg0.win 1).flush t = true ∧ i ∈ ((cfg0.win 1).blk t).view.set := by
  have hi0 : (i 0).val < 4096 := (i 0).isLt
  have hi1 : (i 1).val < 14336 := (i 1).isLt
  obtain ⟨t, ht⟩ := block_onto ⟨(i 0).val / 512, by omega⟩ ⟨(i 1).val / 2048, by omega⟩
  have q0 : win0_1.index t (0 : Fin 2) = (i 0).val / 512 := congrFun ht 0
  have q1 : win0_1.index t (1 : Fin 2) = (i 1).val / 2048 := congrFun ht 1
  refine ⟨t, flush0_1 t, ?_⟩
  rw [mem_block]
  intro a
  match a with
  | ⟨0, _⟩ =>
    show win0_1.index t (0 : Fin 2) * 512 ≤ (i 0).val ∧ (i 0).val < win0_1.index t (0 : Fin 2) * 512 + 512
    rw [q0]
    generalize (i 0).val = r
    omega
  | ⟨1, _⟩ =>
    show win0_1.index t (1 : Fin 2) * 2048 ≤ (i 1).val ∧ (i 1).val < win0_1.index t (1 : Fin 2) * 2048 + 2048
    rw [q1]
    generalize (i 1).val = r
    omega

/-- THE RESULT ARRAY after the run is the gated SiLU of the argument. -/
theorem final (c : Dev nD) :
    (dats m 0 c).arrAt 1 cfg0.N = gatedSilu (m ((c : Thread nD τ).loc main_arg0)) :=
  (dats m 0 c).arrAt_eq_of_cover 1 (gatedSilu (m ((c : Thread nD τ).loc main_arg0)))
    (fun t _ => flushed_eq m c t) cover

/-- The kernel's run, read: every weakly fair execution ends with the result array at the gated SiLU of the
    argument, the argument unchanged. -/
theorem run : θ_run defs (onTc (τ := τ) (main (F := F))) ⟨m, fun _ => 0, ρ⟩ fun r => ∀ c : Dev nD,
      r.2.mem ((c : Thread nD τ).loc main_v1) = gatedSilu (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.lean ====
/-
  Gated SiLU, kernel against reference, on the extended reals.

  The argument is an array [4096, 28672]; each row is a gate half (columns 0 … 14335) followed by an up half
  (columns 14336 … 28671). Both programs return the array [4096, 14336] whose entry (r, j) is

      (g · σ(g)) · u ,    g = x(r, j),   u = x(r, 14336 + j),   σ(g) = 1 / (1 + e^(−g)).

  The kernel re-reads each row as two rows of 14336, walks an 8 × 7 grid of blocks of 512 rows by 2048 columns,
  and computes σ by its one logistic operation. The reference slices the two halves out of the array and spells
  σ as negate, exponential, add 1, divide 1 by the sum. On the extended reals the logistic operation IS that
  quotient at every argument, ±∞ included, and both programs take the two products in the same order, so the two
  results are the same function of the argument index by index: no property of the input is needed, and the
  precondition (finite inputs) is never opened.

  Proof/GatedSilu.lean states the function; Proof/RefStage.lean shows the reference's result is it;
  Proof/InputBlock.lean and Proof/KernelValue.lean show the kernel's result array is it (what the body leaves in a
  block, which argument entries a block holds, and that the 56 output blocks tile the result). The three frames are
  the runs themselves with the result dropped; the idealized kernel is the kernel's own text, so there is nothing
  to preserve.
-/
import proofs.«107525_j78752520339576_2_alg».proof.Defs
import proofs.«107525_j78752520339576_2_alg».proof.Proof.Gen.Kernel
import proofs.«107525_j78752520339576_2_alg».proof.Proof.Gen.Kernel.Skeleton
import proofs.«107525_j78752520339576_2_alg».proof.Proof.Gen.Kernel.Launch
import proofs.«107525_j78752520339576_2_alg».proof.Proof.Gen.Kernel.Points
import proofs.«107525_j78752520339576_2_alg».proof.Proof.Gen.Kernel.Frame
import proofs.«107525_j78752520339576_2_alg».proof.Proof.Gen.KernelIdeal
import proofs.«107525_j78752520339576_2_alg».proof.Proof.Gen.KernelIdeal.Skeleton
import proofs.«107525_j78752520339576_2_alg».proof.Proof.Gen.KernelIdeal.Launch
import proofs.«107525_j78752520339576_2_alg».proof.Proof.Gen.KernelIdeal.Points
import proofs.«107525_j78752520339576_2_alg».proof.Proof.Gen.KernelIdeal.Frame
import proofs.«107525_j78752520339576_2_alg».proof.Proof.Gen.ReferenceIdeal
import proofs.«107525_j78752520339576_2_alg».proof.Proof.Gen.Pre_finite_inputs
import proofs.«107525_j78752520339576_2_alg».proof.Proof.Gen.KernelIdeal.Value
import proofs.«107525_j78752520339576_2_alg».proof.Proof.Gen.ReferenceIdeal.Run
import proofs.«107525_j78752520339576_2_alg».proof.Proof.Gen.ReferenceIdeal.Read
import proofs.«107525_j78752520339576_2_alg».proof.Proof.GatedSilu
import proofs.«107525_j78752520339576_2_alg».proof.Proof.RefStage
import proofs.«107525_j78752520339576_2_alg».proof.Proof.InputBlock
import proofs.«107525_j78752520339576_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its argument as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories that agree on the argument, the kernel's result array and the reference's both end at the
    gated SiLU of that argument: the kernel's by its blocks (`Hand.run`), the reference's because its last stage
    is that function (`stage_eq`). -/
theorem algebraic : Cert.algebraic_KernelIdeal_ReferenceIdeal := by
  intro m ρ m' ρ' _ hagree
  refine ⟨fun c => Cert.GatedSilu.gatedSilu (F := Ideal)
      (m ((c.tc : Thread Cert.KernelIdeal.nD Cert.KernelIdeal.τ).loc Cert.KernelIdeal.main_arg0)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
